-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x10000 : Shape := ⟨3, ![64, 128, 10000]⟩
abbrev S_ : Shape := ⟨0, ![]⟩

class Facts : Prop where
  bcast_S_S64x128x10000 : S_.BroadcastsInDim S64x128x10000 (![] : Fin 0 → Fin S64x128x10000.rank)
  reducesTo_S64x128x10000_S_d0_1_2 : S64x128x10000.ReducesTo [0, 1, 2] S_
  h_S_ : 0 < S_.numel

variable [Facts]

def fn {F : FTy → Type} [FloatOps F] (main_arg0 : FVec F S64x128x10000 .f32) : IVec S_ 1 :=
  let main_v0 : FVec F S64x128x10000 .f32 := Host.absf main_arg0
  let main_cst : FVec F S_ .f32 := constant S_ .f32 0x7F800000#32
  let main_v1 : FVec F S64x128x10000 .f32 := broadcastInDim S64x128x10000 ![] bcast_S_S64x128x10000 main_cst
  let main_v2 : IVec S64x128x10000 1 := cmpf .olt main_v0 main_v1
  let main_c : IVec S_ 1 := constantI S_ 1 1#1
  let main_v3 : IVec S_ 1 := (fun x v => Host.reduce IntOp.andi x v reducesTo_S64x128x10000_S_d0_1_2 h_S_) main_v2 main_c
  main_v3
-- ==== Kernel.lean ====
abbrev S64x128x10000 : Shape := ⟨3, ![64, 128, 10000]⟩
abbrev S64x10000x128 : Shape := ⟨3, ![64, 10000, 128]⟩
abbrev S32x20000x128 : Shape := ⟨3, ![32, 20000, 128]⟩
abbrev S_ : Shape := ⟨0, ![]⟩
abbrev S128x128 : Shape := ⟨2, ![128, 128]⟩
abbrev S1x20000x128 : Shape := ⟨3, ![1, 20000, 128]⟩
abbrev S20000x128 : Shape := ⟨2, ![20000, 128]⟩
abbrev S2x10000x128 : Shape := ⟨3, ![2, 10000, 128]⟩
abbrev S2x128 : Shape := ⟨2, ![2, 128]⟩
abbrev S2x1x128 : Shape := ⟨3, ![2, 1, 128]⟩

abbrev nBuf : Space → Nat
  | .hbm => 8
  | .vmem => 5
  | .smem => 0
  | _ => 0

abbrev bufTy : (tb : Table) → Fin (tcTables nBuf tb) → BufTy
  | .hbm, ⟨0, _⟩ => ⟨S64x128x10000, .f32⟩
  | .hbm, ⟨1, _⟩ => ⟨S64x10000x128, .f32⟩
  | .hbm, ⟨2, _⟩ => ⟨S32x20000x128, .f32⟩
  | .hbm, ⟨3, _⟩ => ⟨S_, .f32⟩
  | .hbm, ⟨4, _⟩ => ⟨S128x128, .f32⟩
  | .hbm, ⟨5, _⟩ => ⟨S32x20000x128, .f32⟩
  | .hbm, ⟨6, _⟩ => ⟨S64x10000x128, .f32⟩
  | .hbm, ⟨7, _⟩ => ⟨S64x128x10000, .f32⟩
  | .local _ .vmem, ⟨0, _⟩ => ⟨S1x20000x128, .f32⟩
  | .local _ .vmem, ⟨1, _⟩ => ⟨S1x20000x128, .f32⟩
  | .local _ .vmem, ⟨2, _⟩ => ⟨S128x128, .f32⟩
  | .local _ .vmem, ⟨3, _⟩ => ⟨S1x20000x128, .f32⟩
  | .local _ .vmem, ⟨4, _⟩ => ⟨S1x20000x128, .f32⟩
  | _, _ => ⟨S64x128x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x20000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x128x10000_S64x10000x128_0_2_1 : S64x128x10000.Transposes [0, 2, 1] S64x10000x128
  shapeCasts_S64x10000x128_S32x20000x128 : S64x10000x128.ShapeCasts S32x20000x128
  bcast_S_S128x128 : S_.BroadcastsInDim S128x128 (![] : Fin 0 → Fin S128x128.rank)
  inb_S1x20000x128_S1x20000x128_0_0_0 : ∀ a, (![0, 0, 0] : Fin 3 → Nat) a + S1x20000x128.size a ≤ S1x20000x128.size a
  h_S1x20000x128 : 0 < S1x20000x128.numel
  shapeCasts_S1x20000x128_S20000x128 : S1x20000x128.ShapeCasts S20000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S20000x128_S2x10000x128 : S20000x128.ShapeCasts S2x10000x128
  reduces_S2x10000x128_S2x128 : S2x10000x128.Reduces [1] S2x128
  shapeCasts_S2x128_S2x1x128 : S2x128.ShapeCasts S2x1x128
  broadcasts_S2x1x128_S2x10000x128 : S2x1x128.Broadcasts S2x10000x128
  shapeCasts_S2x10000x128_S20000x128 : S2x10000x128.ShapeCasts S20000x128
  shapeCasts_S20000x128_S1x20000x128 : S20000x128.ShapeCasts S1x20000x128
  shapeCasts_S32x20000x128_S64x10000x128 : S32x20000x128.ShapeCasts S64x10000x128
  transposes_S64x10000x128_S64x128x10000_0_2_1 : S64x10000x128.Transposes [0, 2, 1] S64x128x10000
  dot_S20000x128_S128x128_S20000x128_1_0_0_1_n_n_wf : DotDims.WF S20000x128 S128x128 S20000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x128.size a ≤ S32x20000x128.size a
  hwx0_0 : ∀ i : grid0.Coords, EltTy.bits .f32 = 32 ∨ (Rect.block (s := S32x20000x128) S1x20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x128.size a ≤ S32x20000x128.size a
  hwx0_2 : ∀ i : grid0.Coords, EltTy.bits .f32 = 32 ∨ (Rect.block (s := S32x20000x128) S1x20000x128.size (cc0_transform_2 i) (hinb0_2 i)).WholeWords (EltTy.packing .f32)

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

abbrev win0_0 : Pipeline.Window sig grid0 :=
  Pipeline.Window.ofSpec (Memref.whole main_v1) S1x20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x20000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128x10000 : Shape := ⟨3, ![64, 128, 10000]⟩
abbrev S_ : Shape := ⟨0, ![]⟩
abbrev S64x10000 : Shape := ⟨2, ![64, 10000]⟩
abbrev S64x1x10000 : Shape := ⟨3, ![64, 1, 10000]⟩
abbrev S64x128 : Shape := ⟨2, ![64, 128]⟩
abbrev S64x128x1 : Shape := ⟨3, ![64, 128, 1]⟩

abbrev nBuf : Space → Nat
  | .hbm => 50
  | .vmem => 0
  | .smem => 0
  | _ => 0

abbrev bufTy : (tb : Table) → Fin (tcTables nBuf tb) → BufTy
  | .hbm, ⟨0, _⟩ => ⟨S64x128x10000, .f32⟩
  | .hbm, ⟨1, _⟩ => ⟨S_, .f32⟩
  | .hbm, ⟨2, _⟩ => ⟨S64x10000, .f32⟩
  | .hbm, ⟨3, _⟩ => ⟨S64x1x10000, .f32⟩
  | .hbm, ⟨4, _⟩ => ⟨S_, .f32⟩
  | .hbm, ⟨5, _⟩ => ⟨S64x1x10000, .f32⟩
  | .hbm, ⟨6, _⟩ => ⟨S64x1x10000, .f32⟩
  | .hbm, ⟨7, _⟩ => ⟨S64x128x10000, .f32⟩
  | .hbm, ⟨8, _⟩ => ⟨S64x128x10000, .f32⟩
  | .hbm, ⟨9, _⟩ => ⟨S_, .f32⟩
  | .hbm, ⟨10, _⟩ => ⟨S64x128, .f32⟩
  | .hbm, ⟨11, _⟩ => ⟨S64x128x1, .f32⟩
  | .hbm, ⟨12, _⟩ => ⟨S_, .f32⟩
  | .hbm, ⟨13, _⟩ => ⟨S64x128x1, .f32⟩
  | .hbm, ⟨14, _⟩ => ⟨S64x128x1, .f32⟩
  | .hbm, ⟨15, _⟩ => ⟨S_, .i32⟩
  | .hbm, ⟨16, _⟩ => ⟨S_, .f32⟩
  | .hbm, ⟨17, _⟩ => ⟨S64x128, .f32⟩
  | .hbm, ⟨18, _⟩ => ⟨S64x128x1, .f32⟩
  | .hbm, ⟨19, _⟩ => ⟨S_, .f32⟩
  | .hbm, ⟨20, _⟩ => ⟨S64x128x1, .f32⟩
  | .hbm, ⟨21, _⟩ => ⟨S64x128x1, .f32⟩
  | .hbm, ⟨22, _⟩ => ⟨S64x128x10000, .f32⟩
  | .hbm, ⟨23, _⟩ => ⟨S64x128x10000, .f32⟩
  | .hbm, ⟨24, _⟩ => ⟨S64x128x10000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S64x128, .f32⟩
  | .hbm, ⟨30, _⟩ => ⟨S64x128x1, .f32⟩
  | .hbm, ⟨31, _⟩ => ⟨S64x128x1, .f32⟩
  | .hbm, ⟨32, _⟩ => ⟨S64x128x1, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S64x128x1, .f32⟩
  | .hbm, ⟨38, _⟩ => ⟨S64x128x1, .f32⟩
  | .hbm, ⟨39, _⟩ => ⟨S64x128x1, .f32⟩
  | .hbm, ⟨40, _⟩ => ⟨S_, .f32⟩
  | .hbm, ⟨41, _⟩ => ⟨S64x128x1, .f32⟩
  | .hbm, ⟨42, _⟩ => ⟨S64x128x1, .i1⟩
  | .hbm, ⟨43, _⟩ => ⟨S_, .f32⟩
  | .hbm, ⟨44, _⟩ => ⟨S64x128x1, .f32⟩
  | .hbm, ⟨45, _⟩ => ⟨S64x128x1, .f32⟩
  | .hbm, ⟨46, _⟩ => ⟨S64x128x10000, .f32⟩
  | .hbm, ⟨47, _⟩ => ⟨S64x128x10000, .f32⟩
  | .hbm, ⟨48, _⟩ => ⟨S64x128x10000, .f32⟩
  | .hbm, ⟨49, _⟩ => ⟨S64x128x10000, .f32⟩
  | _, _ => ⟨S64x128x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_call0_v12 : Ref sig .tc := ⟨.hbm, 32, rfl⟩
abbrev main_call0_call0_cst_3 : Ref sig .tc := ⟨.hbm, 33, rfl⟩
abbrev main_call0_call0_v13 : Ref sig .tc := ⟨.hbm, 34, rfl⟩
abbrev main_call0_call0_cst_4 : Ref sig .tc := ⟨.hbm, 35, rfl⟩
abbrev main_call0_call0_call0_v0 : Ref sig .tc := ⟨.hbm, 36, rfl⟩
abbrev main_call0_call0_call0_v1 : Ref sig .tc := ⟨.hbm, 37, rfl⟩
abbrev main_call0_v0 : Ref sig .tc := ⟨.hbm, 38, rfl⟩
abbrev main_v10 : Ref sig .tc := ⟨.hbm, 39, rfl⟩
abbrev main_cst_3 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  reducesTo_S64x128x10000_S64x10000_d1 : S64x128x10000.ReducesTo [1] S64x10000
  h_S_ : 0 < S_.numel
  bcast_S64x10000_S64x1x10000_0_2 : S64x10000.BroadcastsInDim S64x1x10000 (![0, 2] : Fin 2 → Fin S64x1x10000.rank)
  bcast_S_S64x1x10000 : S_.BroadcastsInDim S64x1x10000 (![] : Fin 0 → Fin S64x1x10000.rank)
  bcast_S64x1x10000_S64x128x10000_0_1_2 : S64x1x10000.BroadcastsInDim S64x128x10000 (![0, 1, 2] : Fin 3 → Fin S64x128x10000.rank)
  reducesTo_S64x128x10000_S64x128_d2 : S64x128x10000.ReducesTo [2] S64x128
  bcast_S64x128_S64x128x1_0_1 : S64x128.BroadcastsInDim S64x128x1 (![0, 1] : Fin 2 → Fin S64x128x1.rank)
  bcast_S_S64x128x1 : S_.BroadcastsInDim S64x128x1 (![] : Fin 0 → Fin S64x128x1.rank)
  bcast_S64x128x1_S64x128x10000_0_1_2 : S64x128x1.BroadcastsInDim S64x128x10000 (![0, 1, 2] : Fin 3 → Fin S64x128x10000.rank)

variable [Facts₀]

class Facts : Prop extends Facts₀ where

variable [Facts]
-- ==== Proof.KernelVal.lean ====
/-
  The kernel program's result as a function of its argument array.

  The pipelined call works on the array A = reshape (transpose x) of shape [32, 20000, 128]: group g holds the two
  batches 2g and 2g+1 one after the other along the row axis, channels along the last axis. Grid point g takes the whole
  slab A[g, :, :] and the constant 128x128 matrix, and writes back the slab's payload; so the call's result array is,
  at (g, r, c), the payload of slab g at (0, r, c). The host then reshapes back to [64, 10000, 128] and transposes
  back to [64, 128, 10000].
-/
import proofs.«101749_g26749056319870_feedfinal_429_7_alg».proof.Proof.Gen.KernelIdeal.Skeleton
import Idealize.ShloMosaic.Lib.ValueIdx

noncomputable section

open Idealize.ShloMosaic

namespace Cert.KernelIdeal.Hand

open Cert.KernelIdeal Cert.KernelIdeal.Gen ValueIdx

variable {F : FTy → Type} [FloatOps F] [Named F]

/-- Slab g of the grouped array: rows and channels of group g, as a [1, 20000, 128] block. -/
def slab (A : FVec F S32x20000x128 .f32) (g : Fin 32) : Vec F S1x20000x128 .f32 :=
  fun j => A (ix3 g (j 1) (j 2))

/-- The result array of the pipelined call as one function of the grouped array and the matrix: at (g, r, c) the
    payload of slab g, read at (0, r, c). -/
def slabwise (A : FVec F S32x20000x128 .f32) (J : FVec F S128x128 .f32) : FVec F S32x20000x128 .f32 :=
  fun i => k0_pay1 (slab A (i 0)) J (ix3 (0 : Fin 1) (i 1) (i 2))

/-- The argument transposed to [64, 10000, 128] and grouped to [32, 20000, 128]. -/
def grouped (x : FVec F S64x128x10000 .f32) : FVec F S32x20000x128 .f32 :=
  shapeCast S32x20000x128 (transpose S64x10000x128 [0, 2, 1] x transposes_S64x128x10000_S64x10000x128_0_2_1) shapeCasts_S64x10000x128_S32x20000x128

/-- The averaging matrix: the constant 2^-7 in every entry. -/
def avgMatrix : FVec F S128x128 .f32 :=
  broadcastInDim S128x128 ![] bcast_S_S128x128 (constant (F := F) S_ .f32 0x3C000000#32)

/-- The program's result as a function of the argument: transpose, group, the slabwise payloads, ungroup, transpose back. -/
def kernelVal (x : FVec F S64x128x10000 .f32) : FVec F S64x128x10000 .f32 :=
  transpose S64x128x10000 [0, 2, 1]
    (shapeCast S64x10000x128 (slabwise (grouped x) avgMatrix) shapeCasts_S32x20000x128_S64x10000x128)
    transposes_S64x10000x128_S64x128x10000_0_2_1

end Cert.KernelIdeal.Hand

end
-- ==== Proof.KernelRun.lean ====
/-
  The kernel program's run, read: the result buffer ends at the function kernelVal of the argument.

  Grid point t of the pipelined call writes back block t of the slabwise function of the arrays the call finds; the 32
  blocks tile the call's result array, which therefore ends holding that function; the host lines before the call make
  the grouped array and the constant matrix, the host lines after it ungroup and transpose back.
-/
import proofs.«101749_g26749056319870_feedfinal_429_7_alg».proof.Proof.Gen.KernelIdeal.Frame
import proofs.«101749_g26749056319870_feedfinal_429_7_alg».proof.Proof.KernelVal
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen ValueIdx

variable {F : FTy → Type} [FloatOps F] [Named F]

theorem pay_congr (B B' : Vec F S1x20000x128 .f32) (J J' : Vec F S128x128 .f32) (j j' : S1x20000x128.Idx)
    (hB : B = B') (hJ : J = J') (hj : j = j') : k0_pay1 B J j = k0_pay1 B' J' j' := by
  subst hB hJ hj; rfl

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the slab windows sit at block (t, 0, 0), the matrix window at block (0, 0). -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What grid point t writes back is block t of the slabwise function of the arrays the call finds. -/
theorem flushed_eq (c : Dev nD) (t : Fin cfg0.N) :
    (dats m 0 c).flushed 2 t = ((cfg0.win 2).blk t).view.read (Elt F) (slabwise (V m c main_v1) (V m c main_v2)) := by
  show (cfg0.win 2).cut (grid0.coords t) ((dats m 0 c).after 2 t) = _
  rw [after0_2]
  unfold out0_2
  rw [View.canon_unit_zero hz3]
  simp only [View.ld_unit_zero (S := S1x20000x128) hz3, View.ld_unit_zero (S := S128x128) hz2]
  obtain ⟨e0, e1, e2, e3, e4, e5, e6, e7⟩ := idx_facts t
  funext j
  rw [View.read_apply]
  show k0_pay1 (iblk m c 0 t) (iblk m c 1 t) j = slabwise (V m c main_v1) (V m c main_v2) (((cfg0.win 2).blk t).view.emb j)
  unfold slabwise
  have hj0 : (j 0).val < 1 := (j 0).isLt
  refine pay_congr _ _ _ _ _ _ ?_ ?_ ?_
  · funext y
    have hy0 : (y 0).val < 1 := (y 0).isLt
    unfold iblk slab
    rw [View.read_apply]
    show V m c main_v1 (((cfg0.win 0).blk t).view.emb y) = V m c main_v1 (ix3 _ (y 1) (y 2))
    refine congrArg _ (funext fun a => Fin.ext ?_)
    match a with
    | ⟨0, _⟩ => show win0_0.index t (0 : Fin 3) * 1 + 1 * (y 0).val = win0_2.index t (0 : Fin 3) * 1 + 1 * (j 0).val; omega
    | ⟨1, _⟩ => show win0_0.index t (1 : Fin 3) * 20000 + 1 * (y 1).val = (y 1).val; omega
    | ⟨2, _⟩ => show win0_0.index t (2 : Fin 3) * 128 + 1 * (y 2).val = (y 2).val; omega
  · funext y
    unfold iblk
    rw [View.read_apply]
    show V m c main_v2 (((cfg0.win 1).blk t).view.emb y) = V m c main_v2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext a
    apply Fin.ext
    match a with
    | ⟨0, _⟩ => show (j 0).val = 0; omega
    | ⟨1, _⟩ => show (j 1).val = win0_2.index t (1 : Fin 3) * 20000 + 1 * (j 1).val; omega
    | ⟨2, _⟩ => show (j 2).val = win0_2.index t (2 : Fin 3) * 128 + 1 * (j 2).val; omega

/-- An index of the result array is in point t's block iff each coordinate is in the block's range on its axis. -/
theorem mem_blk (t : Fin cfg0.N) (i : S32x20000x128.Idx) :
    i ∈ ((cfg0.win 2).blk t).view.set ↔ ∀ a : Fin 3, win0_2.index t a * S1x20000x128.size a ≤ (i a).val ∧ (i a).val < win0_2.index t a * S1x20000x128.size a + S1x20000x128.size a := by
  show i ∈ ((View.whole main_v3).slice (win0_2.rect t)).set ↔ _
  rw [View.set_slice_whole, Rect.mem_set_unit]
  exact Iff.rfl

/-- The 32 slabs tile the result array, so it ends holding the slabwise function. -/
theorem final (c : Dev nD) : (dats m 0 c).arrAt 2 cfg0.N = slabwise (V m c main_v1) (V m c main_v2) :=
  (dats m 0 c).arrAt_eq_of_cover 2 _ (fun t _ => flushed_eq m c t) (fun i => by
    have hi0 : (i 0).val < 32 := (i 0).isLt
    have hi1 : (i 1).val < 20000 := (i 1).isLt
    have hi2 : (i 2).val < 128 := (i 2).isLt
    have hN : cfg0.N = 32 := N_0
    refine ⟨⟨(i 0).val, by rw [hN]; exact hi0⟩, flush0_2 _, ?_⟩
    rw [mem_blk]
    obtain ⟨e0, e1, e2, e3, e4, e5, e6, e7⟩ := idx_facts ⟨(i 0).val, by rw [hN]; exact hi0⟩
    intro a
    match a with
    | ⟨0, _⟩ => show win0_2.index _ (0 : Fin 3) * 1 ≤ (i 0).val ∧ (i 0).val < win0_2.index _ (0 : Fin 3) * 1 + 1; rw [e5]; show (i 0).val * 1 ≤ (i 0).val ∧ (i 0).val < (i 0).val * 1 + 1; omega
    | ⟨1, _⟩ => show win0_2.index _ (1 : Fin 3) * 20000 ≤ (i 1).val ∧ (i 1).val < win0_2.index _ (1 : Fin 3) * 20000 + 20000; rw [e6]; omega
    | ⟨2, _⟩ => show win0_2.index _ (2 : Fin 3) * 128 ≤ (i 2).val ∧ (i 2).val < win0_2.index _ (2 : Fin 3) * 128 + 128; rw [e7]; omega)

/-- The grouped array the call finds: the argument transposed to [64, 10000, 128] and reshaped to [32, 20000, 128]. -/
theorem V_v1 (c : Dev nD) : (V m c main_v1 : S32x20000x128.Idx → Elt F .f32)
    = grouped (m ((c : Thread nD τ).loc main_arg0)) := by
  dsimp only [Gen.V, Gen.V0]
  simp only [Gen.hostOps0, List.flatten_cons, List.flatten_nil, List.append_nil, List.cons_append, List.nil_append]
  after_results
  rfl

/-- The matrix the call finds: the constant 2^-7 in every entry. -/
theorem V_v2 (c : Dev nD) : (V m c main_v2 : S128x128.Idx → Elt F .f32)
    = avgMatrix (F := F) := by
  dsimp only [Gen.V, Gen.V0]
  simp only [Gen.hostOps0, List.flatten_cons, List.flatten_nil, List.append_nil, List.cons_append, List.nil_append]
  after_results
  rfl

/-- The host lines after the call leave the result buffer at that function of the argument. -/
theorem tail_v5 (c : Dev nD) :
    Pipeline.afterTail₀ cfgs (dats m) 0 (V0 m) [hostOps1] c main_v5 = kernelVal (m ((c : Thread nD τ).loc main_arg0)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v3)
      = slabwise (V m c main_v1) (V m c main_v2) :=
    (Pipeline.withArrays_arr spec0 launch0.win.arr_inj c _ _ 2).trans (final m c)
  rw [hw, V_v1, V_v2]
  rfl

/-- Every weakly fair execution of the program terminates with the result buffer at kernelVal of the argument and the
    argument unchanged. -/
theorem run : θ_run defs (onTc (τ := τ) (main (F := F))) ⟨m, fun _ => 0, ρ⟩ fun r => ∀ c : Dev nD,
      r.2.mem ((c : Thread nD τ).loc main_v5) = kernelVal (m ((c : Thread nD τ).loc main_arg0))
      ∧ r.2.mem ((c : Thread nD τ).loc main_arg0) = m ((c : Thread nD τ).loc main_arg0) :=
  (θ_run defs _ _).mono (fun _ h c =>
      ⟨((h c).2 main_v5 (Pipeline.mem_restRefs_of main_v5 (by decide) (by decide))).trans (tail_v5 m c),
       ((h c).2 main_arg0 (Pipeline.mem_restRefs_of main_arg0 (by decide) (by decide))).trans (W_main_arg0 m (dats m) c)⟩)
    (run_main m ρ)

end Cert.KernelIdeal.Hand

end
-- ==== Proof.Scalar.lean ====
/-
  The two programs' results written element by element on the extended reals.

  X b c t is the input signal (64 batches, 128 channels, 10000 samples).
  The kernel's way:   m = Σ_k X·2^-7 (a product with the constant matrix), y = X - m,
                      s1 = (Σ_t y)·(1/10000), s2 = (Σ_t y·y)·(1/10000), var = max (s2 - s1·s1) 0, sd = √var,
                      out = (y - s1) · (1 where sd = 0, else 1/sd).
  The reference's way: m = (0 + Σ_k X)/128, y = X - m, μ = (0 + Σ_t y)/10000,
                      var = (0 + Σ_t (y-μ)·(y-μ))/(10000 - 0) (kept because 10000 - 0 > 0), sd = √var,
                      out = (y - μ) / (1 where sd = 0, else sd).
-/
import Idealize.ShloMosaic.PureOps.Ideal

noncomputable section

namespace Cert.Scalar

open Idealize.ShloMosaic

/-- A signal: batch, channel, sample. -/
abbrev Sig := Fin 64 → Fin 128 → Fin 10000 → EReal

/-- The constant of the averaging matrix, 2^-7. -/
abbrev wJ : EReal := Ideal.ofBits .f32 0x3C000000#32
/-- The channel count 128 as a float. -/
abbrev w128 : EReal := Ideal.ofBits .f32 0x43000000#32
/-- The sample count 10000 as a float. -/
abbrev wN : EReal := Ideal.ofBits .f32 0x461C4000#32
/-- The float 1. -/
abbrev w1 : EReal := Ideal.ofBits .f32 0x3F800000#32
/-- The float 0. -/
abbrev w0 : EReal := Ideal.ofBits .f32 0x00000000#32
/-- The word the reference keeps for an empty sample (never selected). -/
abbrev wNaN : EReal := Ideal.ofBits .f32 0x7FC00000#32
/-- The reciprocal of the sample count, exactly. -/
abbrev invN : EReal := ((1 / 10000 : ℝ) : EReal)

/-! ## The kernel's way -/

def kMean (X : Sig) (b : Fin 64) (t : Fin 10000) : EReal := ∑ k : Fin 128, X b k t * wJ
def kY (X : Sig) (b : Fin 64) (c : Fin 128) (t : Fin 10000) : EReal := X b c t - kMean X b t
def kS1 (X : Sig) (b : Fin 64) (c : Fin 128) : EReal := (∑ t : Fin 10000, kY X b c t) * invN
def kS2 (X : Sig) (b : Fin 64) (c : Fin 128) : EReal := (∑ t : Fin 10000, kY X b c t * kY X b c t) * invN
def kSd (X : Sig) (b : Fin 64) (c : Fin 128) : EReal := Ideal.sqrt (max (kS2 X b c - kS1 X b c * kS1 X b c) w0)
def kInv (X : Sig) (b : Fin 64) (c : Fin 128) : EReal :=
  Scalar.select (Ideal.cmp .oeq (kSd X b c) w0) w1 (Ideal.div w1 (kSd X b c))
def kOut (X : Sig) (b : Fin 64) (c : Fin 128) (t : Fin 10000) : EReal := (kY X b c t - kS1 X b c) * kInv X b c

/-! ## The reference's way -/

def rMean (X : Sig) (b : Fin 64) (t : Fin 10000) : EReal := Ideal.div (w0 + ∑ k : Fin 128, X b k t) w128
def rY (X : Sig) (b : Fin 64) (c : Fin 128) (t : Fin 10000) : EReal := X b c t - rMean X b t
def rMu (X : Sig) (b : Fin 64) (c : Fin 128) : EReal := Ideal.div (w0 + ∑ t : Fin 10000, rY X b c t) wN
/-- The sample count less the correction 0 (the integer 0 converted). -/
def rCount : EReal := wN - (((0#32 : BitVec 32).toInt : ℝ) : EReal)
def rVar (X : Sig) (b : Fin 64) (c : Fin 128) : EReal :=
  Scalar.select (Ideal.cmp .ogt rCount w0)
    (Ideal.div (w0 + ∑ t : Fin 10000, (rY X b c t - rMu X b c) * (rY X b c t - rMu X b c)) rCount) wNaN
def rSd (X : Sig) (b : Fin 64) (c : Fin 128) : EReal := Ideal.sqrt (rVar X b c)
def rDen (X : Sig) (b : Fin 64) (c : Fin 128) : EReal :=
  Scalar.select (Ideal.cmp .oeq (rSd X b c) w0) w1 (rSd X b c)
def rOut (X : Sig) (b : Fin 64) (c : Fin 128) (t : Fin 10000) : EReal := Ideal.div (rY X b c t - rMu X b c) (rDen X b c)

end Cert.Scalar

end
-- ==== Proof.KernelRead.lean ====
/-
  The kernel program's function read at an index, on the extended reals.

  The payload of one slab B (two batches stacked along the rows) against the averaging matrix J, stage by stage:
    rows      the slab as a [20000, 128] matrix;
    centred   rows minus rows·J (each row minus its channel mean);
    pair      the centred matrix split into the two batches, [2, 10000, 128];
    moment Y  (Σ over the 10000 samples of Y) times the named reciprocal of the sample count, per (batch, channel);
    sdev      √ max (second moment - first moment squared, 0);
    recip     1 where the deviation is 0, else 1 / deviation;
    scaled    (pair - first moment) · recip, then laid back as a [1, 20000, 128] slab.
  Each stage is read at explicit coordinates; together with the grouping of the argument (batch b = 2g + p sits in
  slab g at rows p·10000 + t) this gives the program's result at (b, c, t) as the scalar form kOut.
-/
import proofs.«101749_g26749056319870_feedfinal_429_7_alg».proof.Proof.KernelVal
import proofs.«101749_g26749056319870_feedfinal_429_7_alg».proof.Proof.Scalar
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open Idealize.ShloMosaic

namespace Cert.KernelIdeal.Hand

open Cert.KernelIdeal Cert.KernelIdeal.Gen ValueIdx

section Stages
variable {F : FTy → Type} [FloatOps F] [Named F]

/-- The slab as a matrix of 20000 rows. -/
def pRows (B : Vec F S1x20000x128 .f32) : FVec F S20000x128 .f32 :=
  shapeCast S20000x128 B shapeCasts_S1x20000x128_S20000x128

/-- Each row minus its product with the averaging matrix. -/
def pCentred (B : Vec F S1x20000x128 .f32) (J : Vec F S128x128 .f32) : FVec F S20000x128 .f32 :=
  subf (pRows B) (matmul dot_S20000x128_S128x128_S20000x128_1_0_0_1_n_n none (pRows B)
    (shapeCast S128x128 J shapeCasts_S128x128_S128x128) (constant S20000x128 .f32 0x00000000#32))

/-- The centred rows as two batches of 10000 samples. -/
def pPair (B : Vec F S1x20000x128 .f32) (J : Vec F S128x128 .f32) : FVec F S2x10000x128 .f32 :=
  shapeCast S2x10000x128 (pCentred B J) shapeCasts_S20000x128_S2x10000x128

/-- The sum over the samples times the reciprocal of the sample count, per (batch, channel). -/
def pMoment (Y : FVec F S2x10000x128 .f32) : FVec F S2x1x128 .f32 :=
  mulf (shapeCast S2x1x128 (multiReduction .add [1] S2x128 Y 0x00000000#32 reduces_S2x10000x128_S2x128 (.inl rfl) rfl) shapeCasts_S2x128_S2x1x128)
    (broadcast S2x1x128 (Named.named κ "inv_10000" 0x38D1B717#32))

/-- The standard deviation from the two moments. -/
def pSdev (s1 s2 : FVec F S2x1x128 .f32) : FVec F S2x1x128 .f32 :=
  sqrt (maximumf (subf s2 (mulf s1 s1)) (broadcast S2x1x128 (Scalar.ofBits .f32 0x00000000#32)))

/-- The scale: 1 where the deviation is 0, else its reciprocal. -/
def pRecip (sd : FVec F S2x1x128 .f32) : FVec F S2x1x128 .f32 :=
  select (cmpf .oeq sd (broadcast S2x1x128 (Scalar.ofBits .f32 0x00000000#32)))
    (broadcast S2x1x128 (Scalar.ofBits .f32 0x3F800000#32))
    (divf (broadcast S2x1x128 (Scalar.ofBits .f32 0x3F800000#32)) sd)

/-- The centred pair less its first moment, times the scale. -/
def pScaled (Y : FVec F S2x10000x128 .f32) (s1 r : FVec F S2x1x128 .f32) : FVec F S2x10000x128 .f32 :=
  mulf (subf Y (broadcastTo S2x10000x128 s1 broadcasts_S2x1x128_S2x10000x128)) (broadcastTo S2x10000x128 r broadcasts_S2x1x128_S2x10000x128)

/-- The payload, staged. -/
def pOut (B : Vec F S1x20000x128 .f32) (J : Vec F S128x128 .f32) : FVec F S1x20000x128 .f32 :=
  shapeCast S1x20000x128
    (shapeCast S20000x128
      (pScaled (pPair B J) (pMoment (pPair B J))
        (pRecip (pSdev (pMoment (pPair B J)) (pMoment (mulf (pPair B J) (pPair B J))))))
      shapeCasts_S2x10000x128_S20000x128)
    shapeCasts_S20000x128_S1x20000x128

/-- The printed payload is the staged one. -/
theorem pay_eq (B : Vec F S1x20000x128 .f32) (J : Vec F S128x128 .f32) : k0_pay1 B J = pOut B J := rfl

end Stages

/-! ## The stages at explicit coordinates, on the extended reals -/

open Cert.Scalar in
/-- The averaging matrix holds 2^-7 everywhere. -/
theorem avgMatrix_apply (k c : Fin 128) : avgMatrix (F := Ideal) (ix2 k c) = Cert.Scalar.wJ :=
  broadcastInDim_apply _ _ _ (ix2 k c) ix0 (fun a => a.elim0)

theorem pRows_apply (B : Vec Ideal S1x20000x128 .f32) (r : Fin 20000) (c : Fin 128) :
    pRows B (ix2 r c) = B (ix3 (0 : Fin 1) r c) :=
  shapeCast_1ab_ab_apply B _ r c

/-- A centred row: the entry minus the row's sum of entries times the matrix constant. -/
theorem pCentred_apply (B : Vec Ideal S1x20000x128 .f32) (J : Vec Ideal S128x128 .f32)
    (hJ : ∀ k c : Fin 128, J (ix2 k c) = Cert.Scalar.wJ) (r : Fin 20000) (c : Fin 128) :
    pCentred B J (ix2 r c) = B (ix3 (0 : Fin 1) r c) - ∑ k : Fin 128, B (ix3 (0 : Fin 1) r k) * Cert.Scalar.wJ := by
  unfold pCentred
  refine congrArg₂ (· - ·) (pRows_apply B r c) ?_
  refine (Ideal.matmul_constant_zero_apply _ none _ _ _).trans ?_
  rw [← Equiv.sum_comp (contrEquiv1 dot_S20000x128_S128x128_S20000x128_1_0_0_1_n_n 128 rfl rfl).symm]
  refine Finset.sum_congr rfl fun k _ => ?_
  have c2 := contrEquiv1_symm_val dot_S20000x128_S128x128_S20000x128_1_0_0_1_n_n 128 rfl rfl k
  have l2 : (dot_S20000x128_S128x128_S20000x128_1_0_0_1_n_n).lhsIdx (ix2 r c) ((contrEquiv1 _ 128 rfl rfl).symm k) = ix2 r k := by
    funext ax; apply Fin.ext
    match ax with
    | ⟨0, _⟩ => simp [DotDims.lhsIdx, dot_S20000x128_S128x128_S20000x128_1_0_0_1_n_n]; rfl
    | ⟨1, _⟩ => simp [DotDims.lhsIdx, dot_S20000x128_S128x128_S20000x128_1_0_0_1_n_n]; exact c2
  have r2 : (dot_S20000x128_S128x128_S20000x128_1_0_0_1_n_n).rhsIdx (ix2 r c) ((contrEquiv1 _ 128 rfl rfl).symm k) = ix2 k c := by
    funext ax; apply Fin.ext
    match ax with
    | ⟨0, _⟩ => simp [DotDims.rhsIdx, dot_S20000x128_S128x128_S20000x128_1_0_0_1_n_n]; exact c2
    | ⟨1, _⟩ => simp [DotDims.rhsIdx, dot_S20000x128_S128x128_S20000x128_1_0_0_1_n_n]; rfl
  rw [l2, r2, pRows_apply, shapeCast_self, hJ]

/-- Row p·10000 + t of the stacked matrix is sample t of batch p. -/
def rowOf (p : Fin 2) (t : Fin 10000) : Fin 20000 := ⟨p.val * 10000 + t.val, by omega⟩

theorem pPair_apply (B : Vec Ideal S1x20000x128 .f32) (J : Vec Ideal S128x128 .f32) (p : Fin 2) (t : Fin 10000) (c : Fin 128) :
    pPair B J (ix3 p t c) = pCentred B J (ix2 (rowOf p t) c) :=
  shapeCast_apply _ _ _ _ (by
    rw [Shape.rowMajor_val_two, Shape.rowMajor_val_three]
    show (p.val * 10000 + t.val) * 128 + c.val = (p.val * 10000 + t.val) * 128 + c.val
    rfl)

/-- The named reciprocal of the sample count is 1/10000 on the extended reals. -/
theorem inv_count : Named.named (F := Ideal) Cert.KernelIdeal.κ "inv_10000" (φ := .f32) 0x38D1B717#32 = Cert.Scalar.invN :=
  IdealRules.named_const.ideal_named_scalar _ _ _ _ rfl

/-- A moment: the sum over the samples times 1/10000. -/
theorem pMoment_apply (Y : FVec Ideal S2x10000x128 .f32) (p : Fin 2) (c : Fin 128) :
    pMoment Y (ix3 p (0 : Fin 1) c) = (∑ t : Fin 10000, Y (ix3 p t c)) * Cert.Scalar.invN := by
  unfold pMoment
  refine congrArg₂ (· * ·) ?_ inv_count
  refine (shapeCast_apply _ _ (ix3 p (0 : Fin 1) c) (ix2 p c) (by
    rw [Shape.rowMajor_val_two, Shape.rowMajor_val_three]
    show p.val * 128 + c.val = (p.val * 1 + 0) * 128 + c.val
    omega)).trans ?_
  refine (Ideal.multiReduction_add_single Y 0x00000000#32 reduces_S2x10000x128_S2x128 (.inl rfl) rfl (ix2 p c)).trans ?_
  refine Finset.sum_congr rfl fun t _ => congrArg Y ?_
  funext a
  match a with
  | ⟨0, _⟩ => rfl
  | ⟨1, _⟩ => rfl
  | ⟨2, _⟩ => rfl

theorem pSdev_apply (s1 s2 : FVec Ideal S2x1x128 .f32) (i : S2x1x128.Idx) :
    pSdev s1 s2 i = Ideal.sqrt (max (s2 i - s1 i * s1 i) Cert.Scalar.w0) := rfl

theorem pRecip_apply (sd : FVec Ideal S2x1x128 .f32) (i : S2x1x128.Idx) :
    pRecip sd i = Scalar.select (Ideal.cmp .oeq (sd i) Cert.Scalar.w0) Cert.Scalar.w1 (Ideal.div Cert.Scalar.w1 (sd i)) := rfl

theorem pScaled_apply (Y : FVec Ideal S2x10000x128 .f32) (s1 r : FVec Ideal S2x1x128 .f32) (p : Fin 2) (t : Fin 10000) (c : Fin 128) :
    pScaled Y s1 r (ix3 p t c) = (Y (ix3 p t c) - s1 (ix3 p (0 : Fin 1) c)) * r (ix3 p (0 : Fin 1) c) := by
  have hb : ∀ (v : FVec Ideal S2x1x128 .f32), broadcastTo S2x10000x128 v broadcasts_S2x1x128_S2x10000x128 (ix3 p t c) = v (ix3 p (0 : Fin 1) c) := fun v =>
    broadcastTo_apply v _ (ix3 p t c) (ix3 p (0 : Fin 1) c) (fun a => by
      match a with
      | ⟨0, _⟩ => rfl
      | ⟨1, _⟩ => rfl
      | ⟨2, _⟩ => rfl)
  unfold pScaled
  show (Y (ix3 p t c) - broadcastTo S2x10000x128 s1 _ (ix3 p t c)) * broadcastTo S2x10000x128 r _ (ix3 p t c) = _
  rw [hb, hb]

/-- The payload at row p·10000 + t is the scaled pair at (p, t). -/
theorem pOut_apply (B : Vec Ideal S1x20000x128 .f32) (J : Vec Ideal S128x128 .f32) (p : Fin 2) (t : Fin 10000) (c : Fin 128) :
    pOut B J (ix3 (0 : Fin 1) (rowOf p t) c)
      = pScaled (pPair B J) (pMoment (pPair B J))
          (pRecip (pSdev (pMoment (pPair B J)) (pMoment (mulf (pPair B J) (pPair B J))))) (ix3 p t c) := by
  unfold pOut
  refine (shapeCast_ab_1ab_apply _ _ (0 : Fin 1) (rowOf p t) c).trans ?_
  exact shapeCast_apply _ _ _ _ (by
    rw [Shape.rowMajor_val_two, Shape.rowMajor_val_three]
    show (p.val * 10000 + t.val) * 128 + c.val = (p.val * 10000 + t.val) * 128 + c.val
    rfl)

/-- The payload of a slab whose two stacked batches are batches bOf 0 and bOf 1 of a signal X: the kernel's scalar
    form of that signal. -/
theorem pOut_signal (B : Vec Ideal S1x20000x128 .f32) (J : Vec Ideal S128x128 .f32)
    (hJ : ∀ k c : Fin 128, J (ix2 k c) = Cert.Scalar.wJ) (X : Cert.Scalar.Sig) (bOf : Fin 2 → Fin 64)
    (hB : ∀ (p : Fin 2) (t : Fin 10000) (c : Fin 128), B (ix3 (0 : Fin 1) (rowOf p t) c) = X (bOf p) c t)
    (p : Fin 2) (t : Fin 10000) (c : Fin 128) :
    pOut B J (ix3 (0 : Fin 1) (rowOf p t) c) = Cert.Scalar.kOut X (bOf p) c t := by
  have hY : ∀ (p : Fin 2) (t : Fin 10000) (c : Fin 128), pPair B J (ix3 p t c) = Cert.Scalar.kY X (bOf p) c t := fun p t c => by
    rw [pPair_apply, pCentred_apply B J hJ, hB]
    unfold Cert.Scalar.kY Cert.Scalar.kMean
    exact congrArg _ (Finset.sum_congr rfl fun k _ => by rw [hB])
  have hS1 : ∀ (p : Fin 2) (c : Fin 128), pMoment (pPair B J) (ix3 p (0 : Fin 1) c) = Cert.Scalar.kS1 X (bOf p) c := fun p c => by
    rw [pMoment_apply]
    unfold Cert.Scalar.kS1
    exact congrArg (· * _) (Finset.sum_congr rfl fun t _ => hY p t c)
  have hS2 : ∀ (p : Fin 2) (c : Fin 128), pMoment (mulf (pPair B J) (pPair B J)) (ix3 p (0 : Fin 1) c) = Cert.Scalar.kS2 X (bOf p) c := fun p c => by
    rw [pMoment_apply]
    unfold Cert.Scalar.kS2
    exact congrArg (· * _) (Finset.sum_congr rfl fun t _ => by rw [mulf_apply, hY])
  rw [pOut_apply, pScaled_apply, pRecip_apply, pSdev_apply, hY, hS1, hS2]
  rfl

/-- Batch p of group g. -/
def batchOf (g : Fin 32) (p : Fin 2) : Fin 64 := ⟨2 * g.val + p.val, by omega⟩

/-- The grouped array at group g, row p·10000 + t, channel c is the argument at batch 2g + p, channel c, sample t. -/
theorem grouped_apply (x : FVec Ideal S64x128x10000 .f32) (g : Fin 32) (p : Fin 2) (t : Fin 10000) (c : Fin 128) :
    grouped x (ix3 g (rowOf p t) c) = x (ix3 (batchOf g p) c t) :=
  (shapeCast_apply _ _ (ix3 g (rowOf p t) c) (ix3 (batchOf g p) t c) (by
    rw [Shape.rowMajor_val_three, Shape.rowMajor_val_three]
    show ((2 * g.val + p.val) * 10000 + t.val) * 128 + c.val = (g.val * 20000 + (p.val * 10000 + t.val)) * 128 + c.val
    omega)).trans (transpose_ix3_021_apply x _ (batchOf g p) t c)

theorem slabwise_apply (A : FVec Ideal S32x20000x128 .f32) (J : FVec Ideal S128x128 .f32) (g : Fin 32) (r : Fin 20000) (c : Fin 128) :
    slabwise A J (ix3 g r c) = k0_pay1 (slab A g) J (ix3 (0 : Fin 1) r c) := rfl

theorem slab_apply (A : FVec Ideal S32x20000x128 .f32) (g : Fin 32) (r : Fin 20000) (c : Fin 128) :
    slab A g (ix3 (0 : Fin 1) r c) = A (ix3 g r c) := rfl

/-- The kernel program at batch 2g + p, channel c, sample t: the kernel's scalar form of the argument's signal. -/
theorem kernelVal_at (x : FVec Ideal S64x128x10000 .f32) (g : Fin 32) (p : Fin 2) (c : Fin 128) (t : Fin 10000) :
    kernelVal x (ix3 (batchOf g p) c t) = Cert.Scalar.kOut (fun b c t => x (ix3 b c t)) (batchOf g p) c t := by
  unfold kernelVal
  refine (transpose_ix3_021_apply _ _ (batchOf g p) c t).trans ?_
  refine (shapeCast_apply _ _ (ix3 (batchOf g p) t c) (ix3 g (rowOf p t) c) (by
    rw [Shape.rowMajor_val_three, Shape.rowMajor_val_three]
    show (g.val * 20000 + (p.val * 10000 + t.val)) * 128 + c.val = ((2 * g.val + p.val) * 10000 + t.val) * 128 + c.val
    omega)).trans ?_
  refine (slabwise_apply _ _ g (rowOf p t) c).trans ?_
  rw [pay_eq]
  have hB : ∀ (p : Fin 2) (t : Fin 10000) (c : Fin 128),
      slab (grouped x) g (ix3 (0 : Fin 1) (rowOf p t) c) = x (ix3 (batchOf g p) c t) :=
    fun p t c => (slab_apply (grouped x) g (rowOf p t) c).trans (grouped_apply x g p t c)
  have hmain := pOut_signal (slab (grouped x) g) (avgMatrix (F := Ideal)) avgMatrix_apply (fun b c t => x (ix3 b c t)) (batchOf g) hB p t c
  exact hmain

/-- THE KERNEL PROGRAM AT AN INDEX: the kernel's scalar form of the argument's signal. -/
theorem kernelVal_apply (x : FVec Ideal S64x128x10000 .f32) (b : Fin 64) (c : Fin 128) (t : Fin 10000) :
    kernelVal x (ix3 b c t) = Cert.Scalar.kOut (fun b c t => x (ix3 b c t)) b c t := by
  have hb : b.val < 64 := b.isLt
  have hgp : batchOf ⟨b.val / 2, by omega⟩ ⟨b.val % 2, by omega⟩ = b :=
    Fin.ext (by show 2 * (b.val / 2) + b.val % 2 = b.val; omega)
  have h := kernelVal_at x ⟨b.val / 2, by omega⟩ ⟨b.val % 2, by omega⟩ c t
  rw [hgp] at h
  exact h

end Cert.KernelIdeal.Hand

end
-- ==== Proof.RefVal.lean ====
/-
  The reference program read as ONE pure function of its argument array, stage by stage.

  With x : [64 batches, 128 channels, 10000 samples]:
    chanMean x   -- per (batch, sample): the sum over the 128 channels divided by 128, spread back over the channels;
    centred x    -- x minus its channel mean (the average-referenced signal y);
    timeMean y   -- per (batch, channel): the sum over the 10000 samples divided by 10000 (shape [64,128,1]);
    variance y   -- per (batch, channel): the sum over samples of (y - timeMean y)^2 divided by 10000 - 0,
                    kept when 10000 - 0 > 0 (it always is);
    stdev y      -- the square root of the variance;
    denom y      -- the standard deviation, replaced by 1 where it equals 0;
    refVal x     -- (y - timeMean y) / denom y with y = centred x.
-/
import proofs.«101749_g26749056319870_feedfinal_429_7_alg».proof.ReferenceIdeal

noncomputable section

namespace Cert.ReferenceIdeal.Hand

open Cert.ReferenceIdeal Idealize.ShloMosaic
open Cert.ReferenceIdeal.Facts₀

variable {F : FTy → Type} [FloatOps F] [Cert.ReferenceIdeal.Facts]

/-- A scalar spread over the [64,128,1] statistics shape. -/
def spreadStat (v : FVec F S_ .f32) : FVec F S64x128x1 .f32 :=
  broadcastInDim S64x128x1 ![] bcast_S_S64x128x1 v

/-- A per-(batch, channel) statistic spread along the sample axis. -/
def alongTime (v : FVec F S64x128x1 .f32) : FVec F S64x128x10000 .f32 :=
  broadcastInDim S64x128x10000 ![0, 1, 2] bcast_S64x128x1_S64x128x10000_0_1_2 v

/-- The mean over the 128 channels, at every (batch, channel, sample). -/
def chanMean (x : FVec F S64x128x10000 .f32) : FVec F S64x128x10000 .f32 :=
  broadcastInDim S64x128x10000 ![0, 1, 2] bcast_S64x1x10000_S64x128x10000_0_1_2
    (Host.divf
      (broadcastInDim S64x1x10000 ![0, 2] bcast_S64x10000_S64x1x10000_0_2
        (Host.reduceAdd x (constant S_ .f32 0x00000000#32) reducesTo_S64x128x10000_S64x10000_d1 h_S_))
      (broadcastInDim S64x1x10000 ![] bcast_S_S64x1x10000 (constant S_ .f32 0x43000000#32)))

/-- The average-referenced signal. -/
def centred (x : FVec F S64x128x10000 .f32) : FVec F S64x128x10000 .f32 :=
  subf x (chanMean x)

/-- The sum over the samples, per (batch, channel), in the [64,128,1] shape. -/
def timeSum (y : FVec F S64x128x10000 .f32) : FVec F S64x128x1 .f32 :=
  broadcastInDim S64x128x1 ![0, 1] bcast_S64x128_S64x128x1_0_1
    (Host.reduceAdd y (constant S_ .f32 0x00000000#32) reducesTo_S64x128x10000_S64x128_d2 h_S_)

/-- The mean over the samples, per (batch, channel). -/
def timeMean (y : FVec F S64x128x10000 .f32) : FVec F S64x128x1 .f32 :=
  Host.divf (timeSum y) (spreadStat (constant S_ .f32 0x461C4000#32))

/-- The number of samples less the degrees-of-freedom correction 0, as a float scalar. -/
def dofCount : FVec F S_ .f32 :=
  subf (constant S_ .f32 0x461C4000#32) (sitofp .f32 (constantI S_ 32 0#32))

/-- The population variance over the samples, per (batch, channel). -/
def variance (y : FVec F S64x128x10000 .f32) : FVec F S64x128x1 .f32 :=
  select (broadcastInDim S64x128x1 ![] bcast_S_S64x128x1 (cmpf .ogt (dofCount (F := F)) (constant S_ .f32 0x00000000#32)))
    (Host.divf
      (timeSum (mulf (subf y (alongTime (timeMean y))) (subf y (alongTime (timeMean y)))))
      (spreadStat dofCount))
    (spreadStat (id (constant S_ .f32 0x7FC00000#32)))

/-- The standard deviation over the samples. -/
def stdev (y : FVec F S64x128x10000 .f32) : FVec F S64x128x1 .f32 :=
  Host.sqrt (variance y)

/-- The divisor: the standard deviation, or 1 where it is 0. -/
def denom (y : FVec F S64x128x10000 .f32) : FVec F S64x128x1 .f32 :=
  select (cmpf .oeq (stdev y) (spreadStat (constant S_ .f32 0x00000000#32)))
    (spreadStat (constant S_ .f32 0x3F800000#32)) (stdev y)

/-- The z-score of the centred signal. -/
def zscore (y : FVec F S64x128x10000 .f32) : FVec F S64x128x10000 .f32 :=
  Host.divf (subf y (alongTime (timeMean y))) (alongTime (denom y))

/-- The reference's result as a function of its argument array. -/
def refVal (x : FVec F S64x128x10000 .f32) : FVec F S64x128x10000 .f32 :=
  zscore (centred x)

end Cert.ReferenceIdeal.Hand

end
-- ==== Proof.RefRun.lean ====
/-
  The run of the reference program, read back as a pure function of its argument.

  The program is a straight line once its calls are unfolded: the calls of the outlined functions execute the
  callee's body on the operands, each value of a body in a buffer of its own, so @main is the list of its own
  operations with the callees' operations in their place, in program order (forty-nine in all).  Running that list
  from any memory, every execution terminates; the result buffer then holds the composition of the operations'
  functions applied to the argument's contents, and that composition is `refVal`: the z-score along the sample
  axis of the average-referenced signal.  The argument buffer is written by no operation and keeps its contents.
-/
import proofs.«101749_g26749056319870_feedfinal_429_7_alg».proof.Proof.RefVal
import proofs.«101749_g26749056319870_feedfinal_429_7_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: fifteen of @main's own, then the standard deviation's
    twenty-four (the variance's twenty, the three of the selection inside it, the square root), five more of
    @main's, the one selection of the second call, and @main's last four. -/
abbrev ops : List (HloOp τ sig (Elt F)) :=
  [
    -- the channel mean: the sum over the 128 channels, divided by 128, spread back over the channels; then x minus it
    nullary main_cst (constant S_ .f32 0x00000000#32),
    binary main_arg0 main_cst main_v0 ((fun x v => Host.reduceAdd x v reducesTo_S64x128x10000_S64x10000_d1 h_S_) : (⟨S64x128x10000, .f32⟩ : BufTy).Contents (Elt F) → (⟨S_, .f32⟩ : BufTy).Contents (Elt F) → (⟨S64x10000, .f32⟩ : BufTy).Contents (Elt F)),
    unary main_v0 main_v1 (broadcastInDim S64x1x10000 ![0, 2] bcast_S64x10000_S64x1x10000_0_2 : (⟨S64x10000, .f32⟩ : BufTy).Contents (Elt F) → (⟨S64x1x10000, .f32⟩ : BufTy).Contents (Elt F)),
    nullary main_cst_0 (constant S_ .f32 0x43000000#32),
    unary main_cst_0 main_v2 (broadcastInDim S64x1x10000 ![] bcast_S_S64x1x10000 : (⟨S_, .f32⟩ : BufTy).Contents (Elt F) → (⟨S64x1x10000, .f32⟩ : BufTy).Contents (Elt F)),
    binary main_v1 main_v2 main_v3 (Host.divf : (⟨S64x1x10000, .f32⟩ : BufTy).Contents (Elt F) → (⟨S64x1x10000, .f32⟩ : BufTy).Contents (Elt F) → (⟨S64x1x10000, .f32⟩ : BufTy).Contents (Elt F)),
    unary main_v3 main_v4 (broadcastInDim S64x128x10000 ![0, 1, 2] bcast_S64x1x10000_S64x128x10000_0_1_2 : (⟨S64x1x10000, .f32⟩ : BufTy).Contents (Elt F) → (⟨S64x128x10000, .f32⟩ : BufTy).Contents (Elt F)),
    binary main_arg0 main_v4 main_v5 (subf : (⟨S64x128x10000, .f32⟩ : BufTy).Contents (Elt F) → (⟨S64x128x10000, .f32⟩ : BufTy).Contents (Elt F) → (⟨S64x128x10000, .f32⟩ : BufTy).Contents (Elt F)),
    -- the mean over the samples of the centred signal: the sum over the 10000 samples divided by 10000
    nullary main_cst_1 (constant S_ .f32 0x00000000#32),
    binary main_v5 main_cst_1 main_v6 ((fun x v => Host.reduceAdd x v reducesTo_S64x128x10000_S64x128_d2 h_S_) : (⟨S64x128x10000, .f32⟩ : BufTy).Contents (Elt F) → (⟨S_, .f32⟩ : BufTy).Contents (Elt F) → (⟨S64x128, .f32⟩ : BufTy).Contents (Elt F)),
    unary main_v6 main_v7 (broadcastInDim S64x128x1 ![0, 1] bcast_S64x128_S64x128x1_0_1 : (⟨S64x128, .f32⟩ : BufTy).Contents (Elt F) → (⟨S64x128x1, .f32⟩ : BufTy).Contents (Elt F)),
    nullary main_cst_2 (constant S_ .f32 0x461C4000#32),
    unary main_cst_2 main_v8 (broadcastInDim S64x128x1 ![] bcast_S_S64x128x1 : (⟨S_, .f32⟩ : BufTy).Contents (Elt F) → (⟨S64x128x1, .f32⟩ : BufTy).Contents (Elt F)),
    binary main_v7 main_v8 main_v9 (Host.divf : (⟨S64x128x1, .f32⟩ : BufTy).Contents (Elt F) → (⟨S64x128x1, .f32⟩ : BufTy).Contents (Elt F) → (⟨S64x128x1, .f32⟩ : BufTy).Contents (Elt F)),
    -- the degrees-of-freedom correction, the integer 0
    nullary main_c (constantI S_ 32 0#32),
    -- the standard deviation of the centred signal; first its variance: the mean over the samples again,
    TRef.nullary main_call0.call0.cst (constant S_ .f32 0x00000000#32),
    TRef.binary (.of main_v5) main_call0.call0.cst main_call0.call0.v0 (fun x v => Host.reduceAdd x v reducesTo_S64x128x10000_S64x128_d2 h_S_),
    TRef.unary main_call0.call0.v0 main_call0.call0.v1 (broadcastInDim S64x128x1 ![0, 1] bcast_S64x128_S64x128x1_0_1),
    TRef.nullary main_call0.call0.cst_0 (constant S_ .f32 0x461C4000#32),
    TRef.unary main_call0.call0.cst_0 main_call0.call0.v2 (broadcastInDim S64x128x1 ![] bcast_S_S64x128x1),
    TRef.binary main_call0.call0.v1 main_call0.call0.v2 main_call0.call0.v3 Host.divf,
    -- the deviation from it and its square,
    TRef.unary main_call0.call0.v3 main_call0.call0.v4 (broadcastInDim S64x128x10000 ![0, 1, 2] bcast_S64x128x1_S64x128x10000_0_1_2),
    TRef.binary (.of main_v5) main_call0.call0.v4 main_call0.call0.v5 subf,
    TRef.binary main_call0.call0.v5 main_call0.call0.v5 main_call0.call0.v6 mulf,
    -- the divisor 10000 - 0,
    TRef.unary (.of main_c) main_call0.call0.v7 (sitofp .f32),
    TRef.nullary main_call0.call0.cst_1 (constant S_ .f32 0x461C4000#32),
    TRef.binary main_call0.call0.cst_1 main_call0.call0.v7 main_call0.call0.v8 subf,
    -- the sum of the squares over the samples divided by it,
    TRef.nullary main_call0.call0.cst_2 (constant S_ .f32 0x00000000#32),
    TRef.binary main_call0.call0.v6 main_call0.call0.cst_2 main_call0.call0.v9 (fun x v => Host.reduceAdd x v reducesTo_S64x128x10000_S64x128_d2 h_S_),
    TRef.unary main_call0.call0.v9 main_call0.call0.v10 (broadcastInDim S64x128x1 ![0, 1] bcast_S64x128_S64x128x1_0_1),
    TRef.unary main_call0.call0.v8 main_call0.call0.v11 (broadcastInDim S64x128x1 ![] bcast_S_S64x128x1),
    TRef.binary main_call0.call0.v10 main_call0.call0.v11 main_call0.call0.v12 Host.divf,
    -- kept where the divisor is positive (a scalar test, spread), otherwise not-a-number,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S64x128x1 ![] bcast_S_S64x128x1),
    TRef.ternary main_call0.call0.v13 main_call0.call0.v12 main_call0.call0.call0.v1 main_call0.call0.call0.v2 (fun p a b => select (broadcastInDim S64x128x1 ![] bcast_S_S64x128x1 p) a b),
    -- and its square root
    TRef.unary main_call0.call0.call0.v2 main_call0.v1 Host.sqrt,
    -- the standard deviation replaced by 1 where it equals 0
    nullary main_cst_3 (constant S_ .f32 0x00000000#32),
    unary main_cst_3 main_v11 (broadcastInDim S64x128x1 ![] bcast_S_S64x128x1 : (⟨S_, .f32⟩ : BufTy).Contents (Elt F) → (⟨S64x128x1, .f32⟩ : BufTy).Contents (Elt F)),
    binary main_v10 main_v11 main_v12 (cmpf .oeq : (⟨S64x128x1, .f32⟩ : BufTy).Contents (Elt F) → (⟨S64x128x1, .f32⟩ : BufTy).Contents (Elt F) → (⟨S64x128x1, .i1⟩ : BufTy).Contents (Elt F)),
    nullary main_cst_4 (constant S_ .f32 0x3F800000#32),
    unary main_cst_4 main_v13 (broadcastInDim S64x128x1 ![] bcast_S_S64x128x1 : (⟨S_, .f32⟩ : BufTy).Contents (Elt F) → (⟨S64x128x1, .f32⟩ : BufTy).Contents (Elt F)),
    TRef.ternary (.of main_v12) (.of main_v13) (.of main_v10) main_call1.v0 select,
    -- the deviation of the centred signal from its sample mean, divided by that
    unary main_v9 main_v15 (broadcastInDim S64x128x10000 ![0, 1, 2] bcast_S64x128x1_S64x128x10000_0_1_2 : (⟨S64x128x1, .f32⟩ : BufTy).Contents (Elt F) → (⟨S64x128x10000, .f32⟩ : BufTy).Contents (Elt F)),
    binary main_v5 main_v15 main_v16 (subf : (⟨S64x128x10000, .f32⟩ : BufTy).Contents (Elt F) → (⟨S64x128x10000, .f32⟩ : BufTy).Contents (Elt F) → (⟨S64x128x10000, .f32⟩ : BufTy).Contents (Elt F)),
    unary main_v14 main_v17 (broadcastInDim S64x128x10000 ![0, 1, 2] bcast_S64x128x1_S64x128x10000_0_1_2 : (⟨S64x128x1, .f32⟩ : BufTy).Contents (Elt F) → (⟨S64x128x10000, .f32⟩ : BufTy).Contents (Elt F)),
    binary main_v16 main_v17 main_v18 (Host.divf : (⟨S64x128x10000, .f32⟩ : BufTy).Contents (Elt F) → (⟨S64x128x10000, .f32⟩ : BufTy).Contents (Elt F) → (⟨S64x128x10000, .f32⟩ : BufTy).Contents (Elt F)) ]

-- a chain of forty-nine steps: re-associating it recurses once per step
set_option maxRecDepth 1024 in
/-- @main is that straight line: with the callees' definitions unfolded at their calls, both sides are one chain
    of operation steps once the sequencing is re-associated. -/
theorem main_eq (c : Dev nD) : main (F := F) c = seq ops := by
  simp only [main, fn_std.body, fn_var.body, fn_where.body, fn_where_0.body, seq, bind_assoc, pure_bind]

/-- No buffer of the signature is scoped, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., ternary_bufs_sub .., unary_bufs_sub .., binary_bufs_sub .., unary_bufs_sub ..,
    binary_bufs_sub ..⟩

/-- The fold at the result buffer is `refVal` of the argument's contents: each operation's result at its own
    buffer is its function's value at its operands' contents, at any other buffer what was there; composed in
    order from the result back to the argument this is the staged definition of `refVal`, term for term. -/
theorem result_eq (V : Valuation τ sig (Elt F)) :
    after ops V (main_v18 : DevRef τ sig) = refVal (V (main_arg0 : DevRef τ sig)) := by
  after_results_simp
  rfl

/-- No operation writes the argument's buffer. -/
theorem arg0_eq (V : Valuation τ sig (Elt F)) :
    after ops V (main_arg0 : DevRef τ sig) = V (main_arg0 : DevRef τ sig) := by
  after_results_simp

/-- On every device, for any float values, from any memory with zero counters: every weakly fair execution of
    @main terminates with the result buffer at `refVal` of the argument's launch contents and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refVal (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (result_eq (launchContents m c)),
      (h c main_arg0).trans (arg0_eq (launchContents m c))⟩)
    (run_seq scopedRefs_eq scopedSems_eq defs main (fun _ => ops) main_eq (fun _ => ops_sub) m ρ)

end Cert.ReferenceIdeal.Hand

end
-- ==== Proof.RefRead.lean ====
/-
  The reference's function `refVal` read at one index, on the extended reals.

  With X b c t the entries of the argument array, `refVal x` at (b, c, t) is the element-by-element form
  `Cert.Scalar.rOut X b c t`: stage by stage, the channel mean is (0 + Σ_k X b k t)/128, the centred signal
  y = X - mean, its sample mean μ = (0 + Σ_t y)/10000, the variance (0 + Σ_t (y-μ)·(y-μ))/(10000 - 0) (kept because
  the scalar test 10000 - 0 > 0 is spread over every entry), its square root, the divisor (1 where that is 0), and
  the quotient (y - μ)/divisor.  A spread statistic read at an index is the statistic at the index with the spread
  axis at 0; a sum over one axis read at an index is the initial value plus the sum over that axis's coordinate.
-/
import proofs.«101749_g26749056319870_feedfinal_429_7_alg».proof.Proof.RefVal
import proofs.«101749_g26749056319870_feedfinal_429_7_alg».proof.Proof.Scalar
import proofs.«101749_g26749056319870_feedfinal_429_7_alg».proof.Proof.Gen.ReferenceIdeal
import Idealize.ShloMosaic.Lib.Pipeline.Value
import Idealize.ShloMosaic.Lib.ValueIdx
import Idealize.ShloMosaic.PureOps.Ideal.Laws

namespace Cert.ReferenceIdeal.Hand

open Cert.ReferenceIdeal Cert.ReferenceIdeal.Gen Idealize.ShloMosaic ValueIdx
open Cert.Scalar (w0 w1 w128 wN wNaN rMean rY rMu rCount rVar rSd rDen rOut)

/-! ## The spreads and the sums at coordinates -/

/-- A selection between words whose three operands are equal pairwise. -/
private theorem select_congr {α : Type} {p p' : BitVec 1} {u u' v v' : α} (hp : p = p') (hu : u = u') (hv : v = v') :
    Scalar.select p u v = Scalar.select p' u' v' := by
  subst hp hu hv; rfl

/-- A scalar spread over the statistics shape reads the scalar everywhere. -/
theorem spreadStat_apply (v : FVec Ideal S_ .f32) (j : S64x128x1.Idx) : spreadStat v j = v ix0 := by
  unfold spreadStat
  exact broadcastInDim_apply _ _ v j ix0 fun a => a.elim0

/-- A statistic spread along the sample axis reads, at (b, c, t), the statistic at (b, c, 0). -/
theorem alongTime_apply (v : FVec Ideal S64x128x1 .f32) (b : Fin 64) (c : Fin 128) (t : Fin 10000) :
    alongTime v (ix3 b c t) = v (ix3 b c (0 : Fin 1)) := by
  unfold alongTime
  refine broadcastInDim_apply _ _ v (ix3 b c t) (ix3 b c (0 : Fin 1)) fun a => ?_
  match a with
  | ⟨0, _⟩ => rfl
  | ⟨1, _⟩ => rfl
  | ⟨2, _⟩ => rfl

/-- The sum over the samples at (b, c, 0): the initial value 0 plus the sum over the sample coordinate. -/
theorem timeSum_apply (y : FVec Ideal S64x128x10000 .f32) (b : Fin 64) (c : Fin 128) :
    timeSum y (ix3 b c (0 : Fin 1)) = w0 + ∑ t : Fin 10000, y (ix3 b c t) := by
  unfold timeSum
  refine (broadcastInDim_apply _ _ _ (ix3 b c (0 : Fin 1)) (ix2 b c) fun a => ?_).trans ?_
  · match a with
    | ⟨0, _⟩ => rfl
    | ⟨1, _⟩ => rfl
  · have h : S64x128x10000.Reduces [2] S64x128 := by decide
    refine (Ideal.hostReduceAdd_single _ h y _ (ix2 b c)).trans ?_
    refine congrArg (w0 + ·) (Finset.sum_congr rfl fun t _ => congrArg y ?_)
    funext a
    match a with
    | ⟨0, _⟩ => rfl
    | ⟨1, _⟩ => rfl
    | ⟨2, _⟩ => rfl

/-! ## The stages at coordinates -/

/-- The channel mean at (b, c, t): (0 + Σ_k X b k t) / 128. -/
theorem chanMean_apply (x : FVec Ideal S64x128x10000 .f32) (b : Fin 64) (c : Fin 128) (t : Fin 10000) :
    chanMean x (ix3 b c t) = rMean (fun b c t => x (ix3 b c t)) b t := by
  unfold chanMean rMean
  refine (broadcastInDim_apply _ _ _ (ix3 b c t) (ix3 b (0 : Fin 1) t) fun a => ?_).trans ?_
  · match a with
    | ⟨0, _⟩ => rfl
    | ⟨1, _⟩ => rfl
    | ⟨2, _⟩ => rfl
  · refine congrArg₂ Ideal.div ?_ ?_
    · refine (broadcastInDim_apply _ _ _ (ix3 b (0 : Fin 1) t) (ix2 b t) fun a => ?_).trans ?_
      · match a with
        | ⟨0, _⟩ => rfl
        | ⟨1, _⟩ => rfl
      · have h : S64x128x10000.Reduces [1] S64x10000 := by decide
        refine (Ideal.hostReduceAdd_single _ h x _ (ix2 b t)).trans ?_
        refine congrArg (w0 + ·) (Finset.sum_congr rfl fun k _ => congrArg x ?_)
        funext a
        match a with
        | ⟨0, _⟩ => rfl
        | ⟨1, _⟩ => rfl
        | ⟨2, _⟩ => rfl
    · exact broadcastInDim_apply _ _ _ _ ix0 fun a => a.elim0

/-- The centred signal at (b, c, t): X b c t less the channel mean. -/
theorem centred_apply (x : FVec Ideal S64x128x10000 .f32) (b : Fin 64) (c : Fin 128) (t : Fin 10000) :
    centred x (ix3 b c t) = rY (fun b c t => x (ix3 b c t)) b c t := by
  unfold centred rY
  exact congrArg (x (ix3 b c t) - ·) (chanMean_apply x b c t)

/-- The sample mean of the centred signal at (b, c, 0): (0 + Σ_t y b c t) / 10000. -/
theorem timeMean_centred_apply (x : FVec Ideal S64x128x10000 .f32) (b : Fin 64) (c : Fin 128) :
    timeMean (centred x) (ix3 b c (0 : Fin 1)) = rMu (fun b c t => x (ix3 b c t)) b c := by
  unfold timeMean rMu
  refine congrArg₂ Ideal.div ?_ (spreadStat_apply _ _)
  exact (timeSum_apply (centred x) b c).trans
    (congrArg (w0 + ·) (Finset.sum_congr rfl fun t _ => centred_apply x b c t))

/-- The deviation of the centred signal from its sample mean at (b, c, t). -/
theorem deviation_apply (x : FVec Ideal S64x128x10000 .f32) (b : Fin 64) (c : Fin 128) (t : Fin 10000) :
    subf (centred x) (alongTime (timeMean (centred x))) (ix3 b c t)
      = rY (fun b c t => x (ix3 b c t)) b c t - rMu (fun b c t => x (ix3 b c t)) b c :=
  congrArg₂ (· - ·) (centred_apply x b c t) ((alongTime_apply _ b c t).trans (timeMean_centred_apply x b c))

/-- The divisor 10000 - 0 of the variance. -/
theorem dofCount_apply (j : S_.Idx) : dofCount (F := Ideal) j = rCount := rfl

/-- The variance of the centred signal at (b, c, 0). -/
theorem variance_centred_apply (x : FVec Ideal S64x128x10000 .f32) (b : Fin 64) (c : Fin 128) :
    variance (centred x) (ix3 b c (0 : Fin 1)) = rVar (fun b c t => x (ix3 b c t)) b c := by
  unfold variance rVar
  refine (select_apply _ _ _ _).trans (select_congr ?_ (congrArg₂ Ideal.div ?_ ?_) ?_)
  · exact broadcastInDim_apply _ _ _ _ ix0 fun a => a.elim0
  · refine (timeSum_apply _ b c).trans (congrArg (w0 + ·) (Finset.sum_congr rfl fun t _ => ?_))
    exact congrArg₂ (· * ·) (deviation_apply x b c t) (deviation_apply x b c t)
  · exact spreadStat_apply _ _
  · exact spreadStat_apply _ _

/-- The standard deviation at (b, c, 0). -/
theorem stdev_centred_apply (x : FVec Ideal S64x128x10000 .f32) (b : Fin 64) (c : Fin 128) :
    stdev (centred x) (ix3 b c (0 : Fin 1)) = rSd (fun b c t => x (ix3 b c t)) b c := by
  unfold stdev rSd
  exact congrArg Ideal.sqrt (variance_centred_apply x b c)

/-- The divisor at (b, c, 0): the standard deviation, 1 where it is 0. -/
theorem denom_centred_apply (x : FVec Ideal S64x128x10000 .f32) (b : Fin 64) (c : Fin 128) :
    denom (centred x) (ix3 b c (0 : Fin 1)) = rDen (fun b c t => x (ix3 b c t)) b c := by
  unfold denom rDen
  refine (select_apply _ _ _ _).trans (select_congr ?_ (spreadStat_apply _ _) (stdev_centred_apply x b c))
  exact congrArg₂ (Ideal.cmp .oeq) (stdev_centred_apply x b c) (spreadStat_apply _ _)

/-- The reference's result at (b, c, t) is its element-by-element form. -/
theorem refVal_apply (x : FVec Ideal S64x128x10000 .f32) (b : Fin 64) (c : Fin 128) (t : Fin 10000) :
    refVal (F := Ideal) x (ix3 b c t) = rOut (fun b c t => x (ix3 b c t)) b c t := by
  unfold refVal zscore rOut
  exact congrArg₂ Ideal.div (deviation_apply x b c t)
    ((alongTime_apply _ b c t).trans (denom_centred_apply x b c))

end Cert.ReferenceIdeal.Hand
-- ==== Proof.RealStats.lean ====
/-
  Two forms of the standard score of one entry of a finite family of real numbers.

  With S = ∑ y and Q = ∑ y², the population variance of y has the second-moment form Q/n - (S/n)² and the
  centred form (∑ (y - S/n)²)/n. Expanding the square, ∑ (y - m)² = Q - 2 m S + n m², which at m = S/n is
  Q - S²/n; so the two forms agree. The centred form is a sum of squares over a positive count, hence nonnegative,
  and the maximum with 0 leaves it unchanged. Finally multiplying by 1/r is dividing by r, and multiplying by 1 is
  dividing by 1.
-/
import Mathlib.Analysis.SpecialFunctions.Pow.Real
import Mathlib.Algebra.BigOperators.Group.Finset.Basic

namespace Cert.RealStats

open Finset

/-- The sum of squared deviations from a number m: ∑ (y - m)² = ∑ y² - 2 m ∑ y + n m². -/
theorem sum_centred_sq (n : ℕ) (y : Fin n → ℝ) (m : ℝ) :
    ∑ s, (y s - m) * (y s - m) = (∑ s, y s * y s) - 2 * m * (∑ s, y s) + (n : ℝ) * (m * m) := by
  have h : ∀ s, (y s - m) * (y s - m) = y s * y s - 2 * m * y s + m * m := fun s => by ring
  simp only [h]
  rw [Finset.sum_add_distrib, Finset.sum_sub_distrib, ← Finset.mul_sum, Finset.sum_const, Finset.card_univ,
    Fintype.card_fin, nsmul_eq_mul]

/-- The second-moment form of the population variance equals the centred form. -/
theorem variance_forms (n : ℕ) (hn : 0 < n) (y : Fin n → ℝ) :
    (∑ s, y s * y s) * (1 / (n : ℝ)) - ((∑ s, y s) * (1 / (n : ℝ))) * ((∑ s, y s) * (1 / (n : ℝ)))
      = (∑ s, (y s - (∑ u, y u) / (n : ℝ)) * (y s - (∑ u, y u) / (n : ℝ))) / (n : ℝ) := by
  have hn' : (n : ℝ) ≠ 0 := Nat.cast_ne_zero.2 (Nat.pos_iff_ne_zero.1 hn)
  rw [sum_centred_sq]
  field_simp
  ring

/-- The centred form of the population variance is nonnegative. -/
theorem variance_nonneg (n : ℕ) (y : Fin n → ℝ) (m : ℝ) : 0 ≤ (∑ s, (y s - m) * (y s - m)) / (n : ℝ) :=
  div_nonneg (Finset.sum_nonneg fun s _ => mul_self_nonneg _) (Nat.cast_nonneg n)

theorem zscore_forms (n : ℕ) (hn : 0 < n) (y : Fin n → ℝ) (t : Fin n) :
    (y t - (∑ s, y s) * (1 / (n : ℝ)))
      * (if Real.sqrt (max ((∑ s, y s * y s) * (1 / (n : ℝ)) - ((∑ s, y s) * (1 / (n : ℝ))) * ((∑ s, y s) * (1 / (n : ℝ)))) 0) = 0 then 1
         else 1 / Real.sqrt (max ((∑ s, y s * y s) * (1 / (n : ℝ)) - ((∑ s, y s) * (1 / (n : ℝ))) * ((∑ s, y s) * (1 / (n : ℝ)))) 0))
    = (y t - (∑ s, y s) / (n : ℝ))
      / (if Real.sqrt ((∑ s, (y s - (∑ u, y u) / (n : ℝ)) * (y s - (∑ u, y u) / (n : ℝ))) / (n : ℝ)) = 0 then 1
         else Real.sqrt ((∑ s, (y s - (∑ u, y u) / (n : ℝ)) * (y s - (∑ u, y u) / (n : ℝ))) / (n : ℝ))) := by
  rw [variance_forms n hn y, max_eq_left (variance_nonneg n y _), mul_one_div]
  split_ifs with h0
  · rw [mul_one, div_one]
  · rw [mul_one_div]

end Cert.RealStats
-- ==== Proof.ScalarEq.lean ====
/-
  On a real-valued signal the kernel's way and the reference's way give the same extended real.

  Every stage of either way, fed real numbers, is the image of a real expression: a finite sum of reals is real,
  the float words here denote the reals 2^-7, 128, 10000, 1 and 0, division by a nonzero real is the product
  with its reciprocal, and the square root of a nonnegative real is the real square root. The two channel means
  agree, Σ_k x_k · (1/128) = (Σ_k x_k)/128, so both ways centre the same real signal y; what remains is that the
  standard score of y computed from the second moment with a reciprocal equals the one computed from the centred
  sum with a quotient.
-/
import proofs.«101749_g26749056319870_feedfinal_429_7_alg».proof.Proof.Scalar
import proofs.«101749_g26749056319870_feedfinal_429_7_alg».proof.Proof.RealStats

noncomputable section

namespace Cert.Scalar

open Idealize.ShloMosaic

/-! ## The float words as real numbers -/

theorem wJ_eq : wJ = ((1 / 128 : ℝ) : EReal) := by
  simp [wJ, Ideal.ofBits, Ideal.ieee, -EReal.coe_mul]; norm_num
theorem w128_eq : w128 = ((128 : ℝ) : EReal) := by
  simp [w128, Ideal.ofBits, Ideal.ieee, -EReal.coe_mul]; norm_num
theorem wN_eq : wN = ((10000 : ℝ) : EReal) := by
  simp [wN, Ideal.ofBits, Ideal.ieee, -EReal.coe_mul]; norm_num
theorem w1_eq : w1 = ((1 : ℝ) : EReal) := by
  simp [w1, Ideal.ofBits, Ideal.ieee, -EReal.coe_mul]; norm_num
theorem w0_eq : w0 = (0 : EReal) := by
  simp [w0, Ideal.ofBits, Ideal.ieee]

/-! ## Reals inside the extended reals -/

/-- A finite sum of reals, read on the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read on the extended reals, is the larger of the readings. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- Choosing by a one-bit word made from a proposition's truth value is choosing by the proposition. -/
theorem select_ofBool {α : Type} (p : Prop) [Decidable p] (a b : α) :
    Scalar.select (BitVec.ofBool (decide p)) a b = if p then a else b := by
  unfold Scalar.select
  by_cases h : p <;> simp [h]

/-- The square root of a nonnegative real is the real square root. -/
theorem sqrt_coe_nonneg {r : ℝ} (h : 0 ≤ r) : Ideal.sqrt (r : EReal) = ((Real.sqrt r : ℝ) : EReal) := by
  rw [Ideal.sqrt_coe, if_neg (not_lt.2 h)]

/-- "1 where r = 0, else 1/r" on the extended reals is the same choice on the reals. -/
theorem inv_select_coe (r : ℝ) :
    Scalar.select (Ideal.cmp .oeq (r : EReal) w0) w1 (Ideal.div w1 (r : EReal))
      = ((if r = 0 then 1 else 1 / r : ℝ) : EReal) := by
  rw [show Ideal.cmp .oeq (r : EReal) w0 = BitVec.ofBool (decide ((r : EReal) = w0)) from rfl, select_ofBool,
    w0_eq, w1_eq]
  by_cases h : r = 0
  · rw [if_pos (EReal.coe_eq_zero.2 h), if_pos h]
  · rw [if_neg (fun e => h (EReal.coe_eq_zero.1 e)), if_neg h, Ideal.div_coe h, ← EReal.coe_mul, one_mul]

/-- "1 where r = 0, else r" on the extended reals is the same choice on the reals. -/
theorem den_select_coe (r : ℝ) :
    Scalar.select (Ideal.cmp .oeq (r : EReal) w0) w1 (r : EReal) = ((if r = 0 then 1 else r : ℝ) : EReal) := by
  rw [show Ideal.cmp .oeq (r : EReal) w0 = BitVec.ofBool (decide ((r : EReal) = w0)) from rfl, select_ofBool,
    w0_eq, w1_eq]
  by_cases h : r = 0
  · rw [if_pos (EReal.coe_eq_zero.2 h), if_pos h]
  · rw [if_neg (fun e => h (EReal.coe_eq_zero.1 e)), if_neg h]

/-! ## The real signal and its centred form -/

variable (xr : Fin 64 → Fin 128 → Fin 10000 → ℝ)

/-- A real-valued signal read on the extended reals. -/
def coeSig : Sig := fun b c t => ((xr b c t : ℝ) : EReal)

/-- The mean over the 128 channels. -/
def mR (b : Fin 64) (t : Fin 10000) : ℝ := (∑ k : Fin 128, xr b k t) / 128
/-- The signal less its channel mean. -/
def yR (b : Fin 64) (c : Fin 128) (t : Fin 10000) : ℝ := xr b c t - mR xr b t

/-! ## The kernel's way, stage by stage -/

theorem kMean_coe (b : Fin 64) (t : Fin 10000) : kMean (coeSig xr) b t = ((mR xr b t : ℝ) : EReal) := by
  show ∑ k : Fin 128, ((xr b k t : ℝ) : EReal) * wJ = _
  rw [wJ_eq]
  simp only [← EReal.coe_mul]
  rw [← coe_sum, ← Finset.sum_mul, mul_one_div, mR]

theorem kY_coe (b : Fin 64) (c : Fin 128) (t : Fin 10000) : kY (coeSig xr) b c t = ((yR xr b c t : ℝ) : EReal) := by
  show ((xr b c t : ℝ) : EReal) - kMean (coeSig xr) b t = _
  rw [kMean_coe, ← EReal.coe_sub, yR]

theorem kS1_coe (b : Fin 64) (c : Fin 128) :
    kS1 (coeSig xr) b c = (((∑ t : Fin 10000, yR xr b c t) * (1 / 10000) : ℝ) : EReal) := by
  unfold kS1
  simp only [kY_coe]
  rw [← coe_sum, ← EReal.coe_mul]

theorem kS2_coe (b : Fin 64) (c : Fin 128) :
    kS2 (coeSig xr) b c = (((∑ t : Fin 10000, yR xr b c t * yR xr b c t) * (1 / 10000) : ℝ) : EReal) := by
  unfold kS2
  simp only [kY_coe, ← EReal.coe_mul]
  rw [← coe_sum, ← EReal.coe_mul]

theorem kSd_coe (b : Fin 64) (c : Fin 128) :
    kSd (coeSig xr) b c = ((Real.sqrt (max ((∑ t : Fin 10000, yR xr b c t * yR xr b c t) * (1 / 10000)
        - ((∑ t : Fin 10000, yR xr b c t) * (1 / 10000)) * ((∑ t : Fin 10000, yR xr b c t) * (1 / 10000))) 0) : ℝ) : EReal) := by
  unfold kSd
  rw [kS1_coe, kS2_coe, w0_eq, ← EReal.coe_zero, ← EReal.coe_mul, ← EReal.coe_sub, coe_max,
    sqrt_coe_nonneg (le_max_right _ _)]

theorem kOut_coe (b : Fin 64) (c : Fin 128) (t : Fin 10000) :
    kOut (coeSig xr) b c t = (((yR xr b c t - (∑ s : Fin 10000, yR xr b c s) * (1 / 10000))
      * (if Real.sqrt (max ((∑ s : Fin 10000, yR xr b c s * yR xr b c s) * (1 / 10000)
          - ((∑ s : Fin 10000, yR xr b c s) * (1 / 10000)) * ((∑ s : Fin 10000, yR xr b c s) * (1 / 10000))) 0) = 0 then 1
         else 1 / Real.sqrt (max ((∑ s : Fin 10000, yR xr b c s * yR xr b c s) * (1 / 10000)
          - ((∑ s : Fin 10000, yR xr b c s) * (1 / 10000)) * ((∑ s : Fin 10000, yR xr b c s) * (1 / 10000))) 0)) : ℝ) : EReal) := by
  unfold kOut kInv
  rw [kY_coe, kS1_coe, kSd_coe, inv_select_coe, ← EReal.coe_sub, ← EReal.coe_mul]

/-! ## The reference's way, stage by stage -/

theorem rMean_coe (b : Fin 64) (t : Fin 10000) : rMean (coeSig xr) b t = ((mR xr b t : ℝ) : EReal) := by
  show Ideal.div (w0 + ∑ k : Fin 128, ((xr b k t : ℝ) : EReal)) w128 = _
  rw [w0_eq, zero_add, w128_eq, Ideal.div_coe (by norm_num), ← coe_sum, ← EReal.coe_mul, mul_one_div, mR]

theorem rY_coe (b : Fin 64) (c : Fin 128) (t : Fin 10000) : rY (coeSig xr) b c t = ((yR xr b c t : ℝ) : EReal) := by
  show ((xr b c t : ℝ) : EReal) - rMean (coeSig xr) b t = _
  rw [rMean_coe, ← EReal.coe_sub, yR]

theorem rMu_coe (b : Fin 64) (c : Fin 128) :
    rMu (coeSig xr) b c = (((∑ t : Fin 10000, yR xr b c t) / 10000 : ℝ) : EReal) := by
  unfold rMu
  simp only [rY_coe]
  rw [w0_eq, zero_add, wN_eq, Ideal.div_coe (by norm_num), ← coe_sum, ← EReal.coe_mul, ← div_eq_mul_one_div]

/-- The sample count less the correction 0 is 10000. -/
theorem rCount_coe : rCount = ((10000 : ℝ) : EReal) := by
  unfold rCount
  rw [wN_eq, show ((0#32 : BitVec 32).toInt) = 0 from by decide, Int.cast_zero, EReal.coe_zero, sub_zero]

theorem rVar_coe (b : Fin 64) (c : Fin 128) :
    rVar (coeSig xr) b c = (((∑ t : Fin 10000, (yR xr b c t - (∑ u : Fin 10000, yR xr b c u) / 10000)
        * (yR xr b c t - (∑ u : Fin 10000, yR xr b c u) / 10000)) / 10000 : ℝ) : EReal) := by
  unfold rVar
  rw [show Ideal.cmp .ogt rCount w0 = BitVec.ofBool (decide (w0 < rCount)) from rfl, select_ofBool, rCount_coe, w0_eq,
    if_pos (EReal.coe_pos.2 (by norm_num)), zero_add]
  simp only [rY_coe, rMu_coe, ← EReal.coe_sub, ← EReal.coe_mul]
  rw [Ideal.div_coe (by norm_num), ← coe_sum, ← EReal.coe_mul, ← div_eq_mul_one_div]

theorem rOut_coe (b : Fin 64) (c : Fin 128) (t : Fin 10000) :
    rOut (coeSig xr) b c t = (((yR xr b c t - (∑ s : Fin 10000, yR xr b c s) / 10000)
      / (if Real.sqrt ((∑ s : Fin 10000, (yR xr b c s - (∑ u : Fin 10000, yR xr b c u) / 10000)
          * (yR xr b c s - (∑ u : Fin 10000, yR xr b c u) / 10000)) / 10000) = 0 then 1
         else Real.sqrt ((∑ s : Fin 10000, (yR xr b c s - (∑ u : Fin 10000, yR xr b c u) / 10000)
          * (yR xr b c s - (∑ u : Fin 10000, yR xr b c u) / 10000)) / 10000)) : ℝ) : EReal) := by
  have hv : (0 : ℝ) ≤ (∑ s : Fin 10000, (yR xr b c s - (∑ u : Fin 10000, yR xr b c u) / 10000)
      * (yR xr b c s - (∑ u : Fin 10000, yR xr b c u) / 10000)) / 10000 :=
    div_nonneg (Finset.sum_nonneg fun s _ => mul_self_nonneg _) (by norm_num)
  unfold rOut rDen rSd
  rw [rY_coe, rMu_coe, rVar_coe, sqrt_coe_nonneg hv, den_select_coe, ← EReal.coe_sub,
    Ideal.div_coe (by split_ifs with h0; exacts [one_ne_zero, h0]), ← EReal.coe_mul, ← div_eq_mul_one_div]

/-! ## The two ways agree -/

/-- On a real-valued signal the two ways give the same extended real. -/
theorem kOut_eq_rOut (xr : Fin 64 → Fin 128 → Fin 10000 → ℝ) (b : Fin 64) (c : Fin 128) (t : Fin 10000) :
    kOut (fun b c t => ((xr b c t : ℝ) : EReal)) b c t = rOut (fun b c t => ((xr b c t : ℝ) : EReal)) b c t := by
  show kOut (coeSig xr) b c t = rOut (coeSig xr) b c t
  rw [kOut_coe, rOut_coe]
  have h := Cert.RealStats.zscore_forms 10000 (by norm_num) (yR xr b c) t
  simp only [Nat.cast_ofNat] at h
  exact congrArg _ h

end Cert.Scalar

end
-- ==== Proof.FiniteInputs.lean ====
/-
  From the precondition to "every entry of the input is a real number".

  The precondition is jnp.all(|x| < +∞): the absolute value of every entry, compared with the word 0x7F800000
  (which denotes +∞), reduced by "and" over all three axes. If the reduction is true, every comparison is true.
  At the ideal instance an entry is an extended real and |x| = max x (-x); this is +∞ at both infinities, so
  |x| < +∞ leaves only the real numbers.
-/
import proofs.«101749_g26749056319870_feedfinal_429_7_alg».proof.Pre_finite_inputs
import proofs.«101749_g26749056319870_feedfinal_429_7_alg».proof.Proof.Gen.Pre_finite_inputs
import Idealize.ShloMosaic.PureOps.Ideal
import Idealize.ShloMosaic.Lib.ReduceAll

namespace Cert.FiniteInputs
open Idealize.ShloMosaic

/-- The shape of rank 0 has exactly one index. -/
instance : Subsingleton Cert.Pre_finite_inputs.S_.Idx := ⟨fun a b => funext fun d => d.elim0⟩

/-- The f32 word 0x7F800000 denotes +∞. -/
theorem inf_word : Ideal.ofBits .f32 0x7F800000#32 = (⊤ : EReal) := by
  simp [Ideal.ofBits, Ideal.ieee]

/-- An extended real whose absolute value max x (-x) lies strictly below +∞ is a real number:
    at -∞ the negation is +∞, at +∞ the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a proposition's truth value is 1 exactly when the proposition holds. -/
theorem ofBool_decide_eq_one (p : Prop) [Decidable p] : BitVec.ofBool (decide p) = 1#1 ↔ p := by
  by_cases hp : p <;> simp [hp]

/-- If jnp.all(|x| < +inf) evaluates to true at the ideal instance, every entry of x is a real number. -/
theorem real_of_pre [Cert.Pre_finite_inputs.Facts]
    (x : FVec Ideal Cert.Pre_finite_inputs.S64x128x10000 .f32)
    (h : Cert.Pre_finite_inputs.fn (F := Ideal) x = fun _ => 1#1) :
    ∀ i : Cert.Pre_finite_inputs.S64x128x10000.Idx, ∃ r : ℝ, x i = (r : EReal) := by
  intro i
  -- the one entry of the rank-0 result
  have e := congrFun h (fun a => a.elim0)
  dsimp only [Cert.Pre_finite_inputs.fn] at e
  -- a conjunction over all indices that is true is true at index i
  have hi := Host.reduce_andi_all _ _ _ _ _ e i
  -- the comparison at index i, read at the ideal instance: max (x i) (-(x i)) < +∞
  have hlt : max (x i) (-(x i)) < (⊤ : EReal) := by
    rw [← inf_word]
    exact (ofBool_decide_eq_one _).1 hi
  exact real_of_abs_lt_top (x i) hlt

end Cert.FiniteInputs
-- ==== Proof.lean ====
/-
  The certificate of a fused EEG preprocessor against its jnp reference: per (batch, sample) the mean over the 128
  channels is subtracted (average reference), then per (batch, channel) the signal is standardised over its 10000
  samples (population standard deviation; a zero deviation is replaced by 1).

  The kernel works on the transposed signal, two batches per grid step: it takes the channel mean as a product with
  the constant matrix 2^-7, computes the deviation from the first and second moments (each a sum times the named
  reciprocal 1/10000, the variance clamped at 0) and multiplies by the deviation's reciprocal. The reference divides
  sums by 128 and by 10000, computes the variance from the centred signal and divides by the deviation.

  On the extended reals the two agree wherever the input is finite: both channel means are the same real, so both
  programs standardise one real signal y; Σ(y - μ)²/n = Σy²/n - μ² is nonnegative, so the clamp is the identity and
  the two deviations are one real; multiplying by a nonzero real's reciprocal is dividing by it. Finiteness (the
  precondition) is what lets sums, products and differences be computed in the reals.

  The frames of the two kernel programs are the generated ones; the reference's frame is its run with the result
  dropped; the two named-constant statements are the table's entries.
-/
import proofs.«101749_g26749056319870_feedfinal_429_7_alg».proof.Defs
import proofs.«101749_g26749056319870_feedfinal_429_7_alg».proof.Proof.Gen.Kernel
import proofs.«101749_g26749056319870_feedfinal_429_7_alg».proof.Proof.Gen.Kernel.Frame
import proofs.«101749_g26749056319870_feedfinal_429_7_alg».proof.Proof.Gen.KernelIdeal
import proofs.«101749_g26749056319870_feedfinal_429_7_alg».proof.Proof.Gen.KernelIdeal.Frame
import proofs.«101749_g26749056319870_feedfinal_429_7_alg».proof.Proof.Gen.ReferenceIdeal
import proofs.«101749_g26749056319870_feedfinal_429_7_alg».proof.Proof.Gen.Pre_finite_inputs
import proofs.«101749_g26749056319870_feedfinal_429_7_alg».proof.Proof.KernelRun
import proofs.«101749_g26749056319870_feedfinal_429_7_alg».proof.Proof.KernelRead
import proofs.«101749_g26749056319870_feedfinal_429_7_alg».proof.Proof.RefRun
import proofs.«101749_g26749056319870_feedfinal_429_7_alg».proof.Proof.RefRead
import proofs.«101749_g26749056319870_feedfinal_429_7_alg».proof.Proof.ScalarEq
import proofs.«101749_g26749056319870_feedfinal_429_7_alg».proof.Proof.FiniteInputs
import Idealize.ShloMosaic.Adequacy
import Idealize.ShloMosaic.Init

noncomputable section

namespace Cert.Proof

open Idealize.ShloMosaic Idealize.ShloMosaic.TcCoe Idealize.SL.Sem ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- Both occurrences of the kernel's literal 1/10000 are the table's entry. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- On an array of real numbers the two programs' functions agree, index by index: each is its scalar form of the
    array's signal, and the two scalar forms agree on a real signal. -/
theorem values_eq (x : FVec Ideal Cert.KernelIdeal.S64x128x10000 .f32) (hx : ∀ i, ∃ r : ℝ, x i = (r : EReal)) :
    Cert.KernelIdeal.Hand.kernelVal x = Cert.ReferenceIdeal.Hand.refVal x := by
  choose xr hxr using hx
  funext i
  obtain ⟨b, c, t, rfl⟩ : ∃ (b : Fin 64) (c : Fin 128) (t : Fin 10000), i = ix3 b c t := ⟨i 0, i 1, i 2, eq_ix3 i⟩
  rw [Cert.KernelIdeal.Hand.kernelVal_apply, Cert.ReferenceIdeal.Hand.refVal_apply]
  have hX : (fun (b : Fin 64) (c : Fin 128) (t : Fin 10000) => x (ix3 b c t))
      = fun b c t => ((xr (ix3 b c t) : ℝ) : EReal) :=
    funext fun b => funext fun c => funext fun t => hxr _
  rw [hX]
  exact Cert.Scalar.kOut_eq_rOut (fun b c t => xr (ix3 b c t)) b c t

/-- From memories agreeing on the argument both programs end with the same result array. -/
theorem algebraic : Cert.algebraic_KernelIdeal_ReferenceIdeal := by
  intro m ρ m' ρ' hpre hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [hagree c]
  exact (values_eq _ (Cert.FiniteInputs.real_of_pre _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
